-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn_part1 {F : FTy → Type} [FloatOps F] (main_arg4 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  main_v23

def fn {F : FTy → Type} [FloatOps F] (main_arg0 : FVec F S4096x4096 .f32) (main_arg1 : FVec F S4096x4096 .f32) (main_arg2 : FVec F S4096x4096 .f32) (main_arg3 : FVec F S4096x4096 .f32) (main_arg4 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S4096x4096 : Shape := ⟨2, ![4096, 4096]⟩
abbrev S512x512 : Shape := ⟨2, ![512, 512]⟩

abbrev nBuf : Space → Nat
  | .hbm => 6
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v45 : BitVec 1 := Scalar.cmpi .eq arg2 c7_i32
  let v46 : BitVec 32 := Scalar.extui v45
  let c0_i32_19 : BitVec 32 := 0#32
  let v47 : BitVec 1 := Scalar.cmpi .ne v46 c0_i32_19
  v47

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .f32 = 32 ∨ (Rect.block (s := S4096x4096) S512x512.size (cc0_transform_5 i) (hinb0_5 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LibBlockSum.lean ====
/-
  Sums over a range of T · B consecutive indices taken block by block, and running totals.

  The indices 0, …, T·B − 1 split into T consecutive blocks of B: index t·B + y is entry y of block t.  A sum over all of
  them is therefore the sum over the blocks of each block's sum.  A running total that starts from z plus the first
  term and adds one more term at each step is, after step t, z plus the sum of terms 0, …, t.  Together: a total
  accumulated block by block is z plus the sum over all T·B indices.
-/
import Mathlib

open scoped BigOperators

namespace Cert.Lib.BatchNorm

/-! ## The block decomposition of a range of T · B indices -/

/-- Entry y of block t has flat index t·B + y, below T·B. -/
theorem block_index_lt {T B : ℕ} (t : Fin T) (y : Fin B) : t.val * B + y.val < T * B :=
  calc t.val * B + y.val < t.val * B + B := Nat.add_lt_add_left y.isLt _
    _ = (t.val + 1) * B := by ring
    _ ≤ T * B := Nat.mul_le_mul_right _ t.isLt

/-- A sum over T·B indices is the sum over the T blocks of the sum over each block's B entries. -/
theorem sum_fin_mul {M : Type*} [AddCommMonoid M] (T B : ℕ) (f : Fin (T * B) → M) :
    ∑ i : Fin (T * B), f i = ∑ t : Fin T, ∑ y : Fin B, f ⟨t.val * B + y.val, block_index_lt t y⟩ := by
  rw [← Equiv.sum_comp (finProdFinEquiv (m := T) (n := B)) f, Fintype.sum_prod_type]
  refine Finset.sum_congr rfl fun t _ => Finset.sum_congr rfl fun y _ => ?_
  congr 1
  refine Fin.ext ?_
  simp only [finProdFinEquiv_apply_val]
  ring

/-- The same for a function of the flat index as a natural number, with the blocks and entries counted by ranges. -/
theorem sum_fin_mul_nat {M : Type*} [AddCommMonoid M] (T B : ℕ) (F : ℕ → M) :
    ∑ i : Fin (T * B), F i.val = ∑ t ∈ Finset.range T, ∑ y ∈ Finset.range B, F (t * B + y) := by
  rw [sum_fin_mul T B fun i => F i.val, Finset.sum_range]
  refine Finset.sum_congr rfl fun t _ => ?_
  rw [Finset.sum_range]

/-! ## Running totals -/

/-- A running total a, with a 0 = z + g 0 and a (t + 1) = a t + g (t + 1), is at step t the start z plus the sum of
    g 0, …, g t. -/
theorem running_total {M : Type*} [AddCommMonoid M] (a g : ℕ → M) (z : M) (h0 : a 0 = z + g 0)
    (hs : ∀ t, a (t + 1) = a t + g (t + 1)) (t : ℕ) : a t = z + ∑ s ∈ Finset.range (t + 1), g s := by
  induction t with
  | zero => rw [h0, Finset.sum_range_one]
  | succ t ih => rw [hs t, ih, Finset.sum_range_succ _ (t + 1), add_assoc]

/-- The same when the recurrence is known only up to a last step T − 1: for every t below T. -/
theorem running_total_below {M : Type*} [AddCommMonoid M] (T : ℕ) (a g : ℕ → M) (z : M) (h0 : a 0 = z + g 0)
    (hs : ∀ t, t + 1 < T → a (t + 1) = a t + g (t + 1)) (t : ℕ) (ht : t < T) :
    a t = z + ∑ s ∈ Finset.range (t + 1), g s := by
  induction t with
  | zero => rw [h0, Finset.sum_range_one]
  | succ t ih => rw [hs t ht, ih (Nat.lt_of_succ_lt ht), Finset.sum_range_succ _ (t + 1), add_assoc]

/-- A sum of g 0, …, g (T − 1) counted by a range is the sum over the T indices below T. -/
theorem sum_range_eq_sum_fin {M : Type*} [AddCommMonoid M] (T : ℕ) (g : ℕ → M) :
    ∑ s ∈ Finset.range T, g s = ∑ t : Fin T, g t.val :=
  Finset.sum_range g

/-- A total accumulated block by block — it starts from z plus block 0's sum and adds block t + 1's sum at step
    t + 1 — is, after the last of T ≥ 1 blocks of B entries, z plus the sum over all T·B flat indices. -/
theorem running_total_blocks {M : Type*} [AddCommMonoid M] (T B : ℕ) (hT : 0 < T) (a : ℕ → M) (F : ℕ → M) (z : M)
    (h0 : a 0 = z + ∑ y ∈ Finset.range B, F (0 * B + y))
    (hs : ∀ t, t + 1 < T → a (t + 1) = a t + ∑ y ∈ Finset.range B, F ((t + 1) * B + y)) :
    a (T - 1) = z + ∑ i : Fin (T * B), F i.val := by
  rw [running_total_below T a (fun t => ∑ y ∈ Finset.range B, F (t * B + y)) z h0 hs (T - 1) (by omega),
    sum_fin_mul_nat, Nat.sub_add_cancel hT]

/-! ## Running totals indexed by the steps 0, …, T − 1 themselves -/

/-- A running total a over the T steps, with a 0 = z + g 0 and a (t + 1) = a t + g (t + 1), is at the last step the
    start z plus the sum of all T terms. -/
theorem running_total_fin_last {M : Type*} [AddCommMonoid M] {T : ℕ} (hT : 0 < T) (a g : Fin T → M) (z : M)
    (h0 : a ⟨0, hT⟩ = z + g ⟨0, hT⟩)
    (hs : ∀ (t : ℕ) (h : t + 1 < T), a ⟨t + 1, h⟩ = a ⟨t, Nat.lt_of_succ_lt h⟩ + g ⟨t + 1, h⟩) :
    a ⟨T - 1, Nat.sub_lt hT Nat.one_pos⟩ = z + ∑ s : Fin T, g s := by
  have key := running_total_below T (fun t => if h : t < T then a ⟨t, h⟩ else 0)
    (fun t => if h : t < T then g ⟨t, h⟩ else 0) z
    (by simp only [dif_pos hT]; exact h0)
    (fun t h => by simp only [dif_pos h, dif_pos (Nat.lt_of_succ_lt h)]; exact hs t h)
    (T - 1) (Nat.sub_lt hT Nat.one_pos)
  simp only [dif_pos (Nat.sub_lt hT Nat.one_pos), Nat.sub_add_cancel hT] at key
  rw [key, Finset.sum_range]
  congr 1
  exact Finset.sum_congr rfl fun s _ => by rw [dif_pos s.isLt]

/-- A total accumulated block by block over T ≥ 1 blocks of B entries — it starts from z plus block 0's sum and
    adds block t + 1's sum at step t + 1 — is at the last step z plus the sum over all T·B flat indices. -/
theorem running_total_blocks_fin {M : Type*} [AddCommMonoid M] (T B : ℕ) (hT : 0 < T) (a : Fin T → M)
    (f : Fin (T * B) → M) (z : M)
    (h0 : a ⟨0, hT⟩ = z + ∑ y : Fin B, f ⟨(⟨0, hT⟩ : Fin T).val * B + y.val, block_index_lt ⟨0, hT⟩ y⟩)
    (hs : ∀ (t : ℕ) (h : t + 1 < T), a ⟨t + 1, h⟩ = a ⟨t, Nat.lt_of_succ_lt h⟩
        + ∑ y : Fin B, f ⟨(⟨t + 1, h⟩ : Fin T).val * B + y.val, block_index_lt ⟨t + 1, h⟩ y⟩) :
    a ⟨T - 1, Nat.sub_lt hT Nat.one_pos⟩ = z + ∑ i : Fin (T * B), f i := by
  rw [sum_fin_mul]
  exact running_total_fin_last hT a (fun t => ∑ y : Fin B, f ⟨t.val * B + y.val, block_index_lt t y⟩) z h0 hs

/-! ## The instance 50000 = 10 · 5000 -/

/-- A sum over 50000 indices is the sum over 10 blocks of the sum over each block's 5000 entries. -/
theorem sum_fin_50000 {M : Type*} [AddCommMonoid M] (f : Fin 50000 → M) :
    ∑ i : Fin 50000, f i
      = ∑ t : Fin 10, ∑ y : Fin 5000, f ⟨t.val * 5000 + y.val, by have := t.isLt; have := y.isLt; omega⟩ :=
  sum_fin_mul 10 5000 f

/-- The same for a function of the flat index as a natural number. -/
theorem sum_fin_50000_nat {M : Type*} [AddCommMonoid M] (F : ℕ → M) :
    ∑ i : Fin 50000, F i.val = ∑ t ∈ Finset.range 10, ∑ y ∈ Finset.range 5000, F (t * 5000 + y) :=
  sum_fin_mul_nat 10 5000 F

/-- A total accumulated over 10 blocks of 5000 is z plus the sum over all 50000 flat indices. -/
theorem running_total_50000 {M : Type*} [AddCommMonoid M] (a : ℕ → M) (F : ℕ → M) (z : M)
    (h0 : a 0 = z + ∑ y ∈ Finset.range 5000, F (0 * 5000 + y))
    (hs : ∀ t, t + 1 < 10 → a (t + 1) = a t + ∑ y ∈ Finset.range 5000, F ((t + 1) * 5000 + y)) :
    a 9 = z + ∑ i : Fin 50000, F i.val :=
  running_total_blocks 10 5000 (by norm_num) a F z h0 hs

/-- A total accumulated over the 10 steps, block t being the 5000 entries from 5000 t on, is at step 9 the start z
    plus the sum over all 50000 entries. -/
theorem running_total_50000_fin {M : Type*} [AddCommMonoid M] (a : Fin 10 → M) (f : Fin 50000 → M) (z : M)
    (h0 : a 0 = z + ∑ y : Fin 5000, f ⟨0 * 5000 + y.val, by have := y.isLt; omega⟩)
    (hs : ∀ (t : ℕ) (h : t + 1 < 10), a ⟨t + 1, h⟩ = a ⟨t, Nat.lt_of_succ_lt h⟩
        + ∑ y : Fin 5000, f ⟨(t + 1) * 5000 + y.val, by have := y.isLt; omega⟩) :
    a 9 = z + ∑ i : Fin 50000, f i :=
  running_total_blocks_fin 10 5000 (by norm_num) a f z h0 hs

end Cert.Lib.BatchNorm
-- ==== Proof.Spec.lean ====
/-
  The function both programs compute, stated once over the extended reals.

  For logits a, b of the "negative" and "positive" classes (the third class has logit 0) let M = max(max(a, b), 0).
  The three-way softmax gives the class weights  p₋ = e^(a−M) / Z,  p₊ = e^(b−M) / Z  with
  Z = (e^(a−M) + e^(−M)) + e^(b−M).  A ternary weight with scale s then has mean (p₊ − p₋)·s and variance
  ((p₊ + p₋) − (p₊ − p₋)²)·s².  Entry (r, c) of the result is

      Σ_j x[r,j]·mean[c,j]  +  sqrt(max(Σ_j x[r,j]²·var[c,j], floor)) · noise[r,c] ,

  the sums running over all 4096 input features.  The last part of the file is the one law that is needed to compare
  the two ways of summing: a total over 4096 terms equals the total of eight consecutive partial sums of 512 terms,
  started from zero.  It uses only that addition of extended reals is commutative and associative, so nothing has to
  be known about the entries being finite.
-/
import Idealize.ShloMosaic.PureOps.Ideal
import Idealize.ShloMosaic.PureOps.Ideal.Laws
import Idealize.ShloMosaic.Lib.ValueIdx
import proofs.«152331_j15058155339868_1_alg».proof.Proof.LibBlockSum

noncomputable section

open scoped BigOperators

namespace Cert.LrSpec

open Idealize.ShloMosaic Idealize.ShloMosaic.ValueIdx

/-- The value of the float word of +0.0. -/
def zero32 : EReal := Ideal.ofBits .f32 0x00000000#32
/-- The value of the float word nearest to 1e-8, the floor under the variance. -/
def floor32 : EReal := Ideal.ofBits .f32 0x322BCC77#32

theorem zero32_eq : zero32 = 0 := Ideal.ofBits_zero_f32

/-- Subtracting from the zero word is negating. -/
theorem zero32_sub (x : EReal) : zero32 - x = -x := by
  rw [zero32_eq, sub_eq_add_neg, zero_add]

/-! ## One weight: the three-way softmax, its mean and its variance -/

/-- M = max(max(a, b), 0): the largest of the three logits. -/
def peak (a b : EReal) : EReal := max (max a b) zero32
/-- e^(a − M). -/
def expNeg (a b : EReal) : EReal := Ideal.exp (a - peak a b)
/-- e^(−M), the weight of the class with logit 0. -/
def expZero (a b : EReal) : EReal := Ideal.exp (-(peak a b))
/-- e^(b − M). -/
def expPos (a b : EReal) : EReal := Ideal.exp (b - peak a b)
/-- Z, the three exponentials added in the order (neg + zero) + pos. -/
def norm3 (a b : EReal) : EReal := (expNeg a b + expZero a b) + expPos a b
/-- p₋. -/
def probNeg (a b : EReal) : EReal := Ideal.div (expNeg a b) (norm3 a b)
/-- p₊. -/
def probPos (a b : EReal) : EReal := Ideal.div (expPos a b) (norm3 a b)
/-- The weight's mean (p₊ − p₋)·s. -/
def wMean (a b s : EReal) : EReal := (probPos a b - probNeg a b) * s
/-- The weight's variance ((p₊ + p₋) − (p₊ − p₋)²)·s². -/
def wVar (a b s : EReal) : EReal :=
  ((probPos a b + probNeg a b) - (probPos a b - probNeg a b) * (probPos a b - probNeg a b)) * (s * s)

/-! ## The result, entry by entry -/

/-- A 4096 x 4096 array of extended reals. -/
abbrev Mat : Type := (⟨2, ![4096, 4096]⟩ : Shape).Idx → EReal

/-- Term j of the mean sum of entry (r, c): x[r,j] · mean[c,j]. -/
def meanTerm (X TN TP SC : Mat) (r c j : Fin 4096) : EReal :=
  X (ix2 r j) * wMean (TN (ix2 c j)) (TP (ix2 c j)) (SC (ix2 c j))
/-- Term j of the variance sum of entry (r, c): x[r,j]² · var[c,j]. -/
def varTerm (X TN TP SC : Mat) (r c j : Fin 4096) : EReal :=
  (X (ix2 r j) * X (ix2 r j)) * wVar (TN (ix2 c j)) (TP (ix2 c j)) (SC (ix2 c j))

/-- The epilogue: mean + sqrt(max(variance, floor)) · noise. -/
def combine (mu var e : EReal) : EReal := mu + Ideal.sqrt (max var floor32) * e

/-- The whole result array. -/
def out (X TN TP SC E : Mat) : Mat := fun i =>
  combine (∑ j : Fin 4096, meanTerm X TN TP SC (i 0) (i 1) j) (∑ j : Fin 4096, varTerm X TN TP SC (i 0) (i 1) j) (E i)

/-! ## Eight partial sums of 512 terms make the sum of 4096 terms -/

/-- A function of the 4096 feature indices extended by zero to all naturals, so that a partial sum can be named by the
    natural number of its first index. -/
def ext (f : Fin 4096 → EReal) (j : ℕ) : EReal := if h : j < 4096 then f ⟨j, h⟩ else 0

theorem ext_val (f : Fin 4096 → EReal) (j : Fin 4096) : ext f j.val = f j := by
  unfold ext; rw [dif_pos j.isLt]

theorem ext_of_lt (f : Fin 4096 → EReal) (j : ℕ) (h : j < 4096) : ext f j = f ⟨j, h⟩ := by
  unfold ext; rw [dif_pos h]

/-- Partial sum s: the 512 terms from index 512·s on. -/
def part (f : Fin 4096 → EReal) (s : ℕ) : EReal := ∑ k : Fin 512, ext f (s * 512 + k.val)

/-- Zero plus the eight partial sums, in order, is the whole sum. -/
theorem zero_add_parts (f : Fin 4096 → EReal) :
    zero32 + ∑ s ∈ Finset.range (7 + 1), part f s = ∑ j : Fin 4096, f j := by
  rw [zero32_eq, zero_add]
  have h := Cert.Lib.BatchNorm.sum_fin_mul_nat (M := EReal) 8 512 (ext f)
  have e : ∑ j : Fin 4096, f j = ∑ i : Fin (8 * 512), ext f i.val :=
    Finset.sum_congr rfl fun j _ => (ext_val f j).symm
  rw [e, h]
  refine Finset.sum_congr rfl fun s _ => ?_
  unfold part
  rw [Finset.sum_range]

end Cert.LrSpec

end
-- ==== Proof.RefSpec.lean ====
/-
  The reference program computes the specified function.

  Its operations are read one at a time at an index: first the softmax pieces of one weight (the largest logit, the
  three exponentials, their sum, the two class weights, the weight's mean and variance), then the two contractions
  over the 4096 features — the transposed weight arrays are read back at the swapped index, so term j of entry (r, c)
  multiplies x[r,j] with the weight at (c, j) — and last the epilogue.
-/
import proofs.«152331_j15058155339868_1_alg».proof.Proof.Gen.ReferenceIdeal.Read
import proofs.«152331_j15058155339868_1_alg».proof.Proof.Spec

noncomputable section

open scoped BigOperators

namespace Cert.ReferenceIdeal.RefSpec

open Cert.ReferenceIdeal Cert.ReferenceIdeal.Read Cert.LrSpec
open Idealize.ShloMosaic Idealize.ShloMosaic.ValueIdx

/-- The type of a 4096 x 4096 float array of the program, at the extended reals. -/
abbrev Arr : Type := (⟨S4096x4096, .f32⟩ : BufTy).Contents (Elt Ideal)

variable (x0 x1 x2 x3 x4 : Arr)

/-! ## One weight -/

theorem peak_ref (j : S4096x4096.Idx) : val_main_v2 (F := Ideal) x1 x2 j = peak (x1 j) (x2 j) := by
  rw [val_main_v2_apply, val_main_v0_apply, val_main_v1_apply, val_main_cst_apply]; rfl

theorem expNeg_ref (j : S4096x4096.Idx) : val_main_v4 (F := Ideal) x1 x2 j = expNeg (x1 j) (x2 j) := by
  rw [val_main_v4_apply, val_main_v3_apply, peak_ref]; rfl

theorem expZero_ref (j : S4096x4096.Idx) : val_main_v6 (F := Ideal) x1 x2 j = expZero (x1 j) (x2 j) := by
  rw [val_main_v6_apply, val_main_v5_apply, peak_ref]; rfl

theorem expPos_ref (j : S4096x4096.Idx) : val_main_v8 (F := Ideal) x1 x2 j = expPos (x1 j) (x2 j) := by
  rw [val_main_v8_apply, val_main_v7_apply, peak_ref]; rfl

theorem norm3_ref (j : S4096x4096.Idx) : val_main_v10 (F := Ideal) x1 x2 j = norm3 (x1 j) (x2 j) := by
  rw [val_main_v10_apply, val_main_v9_apply, expNeg_ref, expZero_ref, expPos_ref]; rfl

theorem probNeg_ref (j : S4096x4096.Idx) : val_main_v11 (F := Ideal) x1 x2 j = probNeg (x1 j) (x2 j) := by
  rw [val_main_v11_apply, expNeg_ref, norm3_ref]; rfl

theorem probPos_ref (j : S4096x4096.Idx) : val_main_v12 (F := Ideal) x1 x2 j = probPos (x1 j) (x2 j) := by
  rw [val_main_v12_apply, expPos_ref, norm3_ref]; rfl

theorem wMean_ref (j : S4096x4096.Idx) : val_main_v14 (F := Ideal) x1 x2 x3 j = wMean (x1 j) (x2 j) (x3 j) := by
  rw [val_main_v14_apply, val_main_v13_apply, probPos_ref, probNeg_ref]; rfl

theorem wVar_ref (j : S4096x4096.Idx) : val_main_v19 (F := Ideal) x1 x2 x3 j = wVar (x1 j) (x2 j) (x3 j) := by
  rw [val_main_v19_apply, val_main_v17_apply, val_main_v15_apply, val_main_v16_apply, val_main_v13_apply,
    val_main_v18_apply, probPos_ref, probNeg_ref]; rfl

/-! ## Where the contractions read their operands -/

theorem lhs_mean (i : S4096x4096.Idx) (k : Fin 4096) : lidx_main_v21 i k = ix2 (i 0) k :=
  funext fun a => Fin.ext (by match a with | ⟨0, _⟩ => rfl | ⟨1, _⟩ => rfl)

theorem rhs_mean (i : S4096x4096.Idx) (k : Fin 4096) : idx_main_v20 (ridx_main_v21 i k) = ix2 (i 1) k :=
  funext fun a => Fin.ext (by match a with | ⟨0, _⟩ => rfl | ⟨1, _⟩ => rfl)

theorem lhs_var (i : S4096x4096.Idx) (k : Fin 4096) : lidx_main_v24 i k = ix2 (i 0) k :=
  funext fun a => Fin.ext (by match a with | ⟨0, _⟩ => rfl | ⟨1, _⟩ => rfl)

theorem rhs_var (i : S4096x4096.Idx) (k : Fin 4096) : idx_main_v23 (ridx_main_v24 i k) = ix2 (i 1) k :=
  funext fun a => Fin.ext (by match a with | ⟨0, _⟩ => rfl | ⟨1, _⟩ => rfl)

/-! ## The result -/

/-- The reference's result array is the specified one. -/
theorem ref_eq_out : val_main_v29 (F := Ideal) x0 x1 x2 x3 x4 = out x0 x1 x2 x3 x4 := by
  funext i
  rw [val_main_v29_apply, val_main_v21_apply, val_main_v28_apply, val_main_v27_apply, val_main_v26_apply,
    val_main_v24_apply, val_main_v25_apply, val_main_cst_0_apply]
  simp only [val_main_v20_apply, val_main_v23_apply, val_main_v22_apply, wMean_ref, wVar_ref, lhs_mean, rhs_mean,
    lhs_var, rhs_var]
  rfl

end Cert.ReferenceIdeal.RefSpec

end
-- ==== Proof.Pieces.lean ====
import proofs.«152331_j15058155339868_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  What one grid step leaves behind, as pure functions of the blocks it read.

  A grid step (b, o, k) reads the (b, k) block of the activations, the (o, k) blocks of the two logit arrays and of the
  scales, and the two 512 x 512 accumulators.  At k = 0 it first zeroes the accumulators; at every k it adds the
  block product of the activations with the block of weight means (and of the squared activations with the block of
  weight variances) to them; at k = 7 it also writes mean + sqrt(max(variance, floor)) * noise to the output block.
  Each lemma below says that the contents found after the step are exactly that function of the contents before.
-/
namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At the first step of a reduction run the body zeroes the mean accumulator, reads it back and adds this step's
    product: what it leaves there is the step applied to the zero block. -/
theorem sA0 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (hc0 : cond0_0 i) (hc1 : ¬cond0_1 i)
    (x0 x1 x2 x3 x4 : Vec F S512x512 .f32) :
    sout0_A_0 c i arg3 harg3 arg4 harg4 arg5 harg5 arg6 harg6 arg7 harg7 arg8 harg8 arg9 harg9 arg10 harg10 hc0 hc1 x0 x1 x2 x3 x4
      = k0_pay14 x1 x2 x3 x0 k0_pay3 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread, harg7.read_unread, harg9.read_unread, harg10.read_unread, View.ld_unit_zero (S := S512x512) hz]

/-- The same for the variance accumulator. -/
theorem sA1 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (hc0 : cond0_0 i) (hc1 : ¬cond0_1 i)
    (x0 x1 x2 x3 x4 : Vec F S512x512 .f32) :
    sout0_A_1 c i arg3 harg3 arg4 harg4 arg5 harg5 arg6 harg6 arg7 harg7 arg8 harg8 arg9 harg9 arg10 harg10 hc0 hc1 x0 x1 x2 x3 x4
      = k0_pay1 (k0_pay12 x0) (k0_pay13 x1 x2 x3) k0_pay4 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread, harg7.read_unread, harg9.read_unread, harg10.read_unread, View.ld_unit_zero (S := S512x512) hz]

/-- At a middle step the body adds this step's product to what the mean accumulator held. -/
theorem sB0 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (hc0 : ¬cond0_0 i) (hc1 : ¬cond0_1 i)
    (x0 x1 x2 x3 x4 xs0 xs1 : Vec F S512x512 .f32) :
    sout0_B_0 c i arg3 harg3 arg4 harg4 arg5 harg5 arg6 harg6 arg7 harg7 arg8 harg8 arg9 harg9 arg10 harg10 hc0 hc1 x0 x1 x2 x3 x4 xs0 xs1
      = k0_pay14 x1 x2 x3 x0 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S512x512) hz]

theorem sB1 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (hc0 : ¬cond0_0 i) (hc1 : ¬cond0_1 i)
    (x0 x1 x2 x3 x4 xs0 xs1 : Vec F S512x512 .f32) :
    sout0_B_1 c i arg3 harg3 arg4 harg4 arg5 harg5 arg6 harg6 arg7 harg7 arg8 harg8 arg9 harg9 arg10 harg10 hc0 hc1 x0 x1 x2 x3 x4 xs0 xs1
      = k0_pay1 (k0_pay12 x0) (k0_pay13 x1 x2 x3) xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S512x512) hz]

/-- At the last step the accumulators are updated the same way … -/
theorem sC0 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (hc0 : ¬cond0_0 i) (hc1 : cond0_1 i)
    (x0 x1 x2 x3 x4 xs0 xs1 : Vec F S512x512 .f32) :
    sout0_C_0 c i arg3 harg3 arg4 harg4 arg5 harg5 arg6 harg6 arg7 harg7 arg8 harg8 arg9 harg9 arg10 harg10 hc0 hc1 x0 x1 x2 x3 x4 xs0 xs1
      = k0_pay14 x1 x2 x3 x0 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S512x512) hz]

theorem sC1 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (hc0 : ¬cond0_0 i) (hc1 : cond0_1 i)
    (x0 x1 x2 x3 x4 xs0 xs1 : Vec F S512x512 .f32) :
    sout0_C_1 c i arg3 harg3 arg4 harg4 arg5 harg5 arg6 harg6 arg7 harg7 arg8 harg8 arg9 harg9 arg10 harg10 hc0 hc1 x0 x1 x2 x3 x4 xs0 xs1
      = k0_pay1 (k0_pay12 x0) (k0_pay13 x1 x2 x3) xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S512x512) hz]

/-- … and the output block is the epilogue of the two updated accumulators and the noise block. -/
theorem oC5 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (hc0 : ¬cond0_0 i) (hc1 : cond0_1 i)
    (x0 x1 x2 x3 x4 xs0 xs1 : Vec F S512x512 .f32) :
    out0_C_5 c i arg3 harg3 arg4 harg4 arg5 harg5 arg6 harg6 arg7 harg7 arg8 harg8 arg9 harg9 arg10 harg10 hc0 hc1 x0 x1 x2 x3 x4 xs0 xs1
      = k0_pay2 (k0_pay1 (k0_pay12 x0) (k0_pay13 x1 x2 x3) xs1) (k0_pay14 x1 x2 x3 x0 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  rw [View.readCov_unit_zero (S := S512x512) _ hz, View.readCov_unit_zero (S := S512x512) _ hz]
  simp only [View.readAt_eq_ld, harg3.read_unread, harg4.read_unread, harg5.read_unread, harg6.read_unread, harg7.read_unread, harg9.read_unread, harg10.read_unread, View.ld_unit_zero (S := S512x512) hz]

end Cert.KernelIdeal.Pieces
end
-- ==== Proof.Payload.lean ====
/-
  The body's arithmetic read at one entry of a 512 x 512 block, over the extended reals.

  The pointwise part is the softmax of one weight, exactly as specified, except that the body writes e^(0 − M) where
  the specification has e^(−M): subtracting from zero is negating.  A block product read at entry (p, q) is the sum
  over the 512 columns k of the left block's (p, k) entry times the right block's (q, k) entry — both operands are
  contracted along their second axis.  A change of float format does nothing here.
-/
import proofs.«152331_j15058155339868_1_alg».proof.Proof.Gen.KernelIdeal.Skeleton
import proofs.«152331_j15058155339868_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Cert.LrSpec
open Idealize.ShloMosaic Idealize.ShloMosaic.ValueIdx

/-- A 512 x 512 block of extended reals. -/
abbrev Blk : Type := Vec Ideal S512x512 .f32

variable (v3 v4 v5 v27 : Blk)

/-! ## One weight -/

theorem peak_pay (j : S512x512.Idx) : k0_pay5 (F := Ideal) v3 v4 j = peak (v3 j) (v4 j) := rfl

theorem expNeg_pay (j : S512x512.Idx) : k0_pay6 (F := Ideal) v3 v4 j = expNeg (v3 j) (v4 j) := rfl

theorem expPos_pay (j : S512x512.Idx) : k0_pay7 (F := Ideal) v3 v4 j = expPos (v3 j) (v4 j) := rfl

theorem norm3_pay (j : S512x512.Idx) : k0_pay8 (F := Ideal) v3 v4 j = norm3 (v3 j) (v4 j) := by
  show (expNeg (v3 j) (v4 j) + Ideal.exp (zero32 - peak (v3 j) (v4 j))) + expPos (v3 j) (v4 j) = _
  rw [zero32_sub]; rfl

theorem probNeg_pay (j : S512x512.Idx) : k0_pay9 (F := Ideal) v3 v4 j = probNeg (v3 j) (v4 j) := by
  show Ideal.div (k0_pay6 (F := Ideal) v3 v4 j) (k0_pay8 (F := Ideal) v3 v4 j) = _
  rw [norm3_pay, expNeg_pay]; rfl

theorem probPos_pay (j : S512x512.Idx) : k0_pay10 (F := Ideal) v3 v4 j = probPos (v3 j) (v4 j) := by
  show Ideal.div (k0_pay7 (F := Ideal) v3 v4 j) (k0_pay8 (F := Ideal) v3 v4 j) = _
  rw [norm3_pay, expPos_pay]; rfl

theorem diff_pay (j : S512x512.Idx) :
    k0_pay11 (F := Ideal) v3 v4 j = probPos (v3 j) (v4 j) - probNeg (v3 j) (v4 j) := by
  show k0_pay10 (F := Ideal) v3 v4 j - k0_pay9 (F := Ideal) v3 v4 j = _
  rw [probPos_pay, probNeg_pay]

/-- The block of weight means at an entry. -/
theorem wMean_pay (j : S512x512.Idx) :
    mulf (k0_pay11 (F := Ideal) v3 v4) v5 j = wMean (v3 j) (v4 j) (v5 j) := by
  show k0_pay11 (F := Ideal) v3 v4 j * v5 j = _
  rw [diff_pay]; rfl

/-- The block of weight variances at an entry. -/
theorem wVar_pay (j : S512x512.Idx) : k0_pay13 (F := Ideal) v3 v4 v5 j = wVar (v3 j) (v4 j) (v5 j) := by
  show ((k0_pay10 (F := Ideal) v3 v4 j + k0_pay9 (F := Ideal) v3 v4 j)
      - k0_pay11 (F := Ideal) v3 v4 j * k0_pay11 (F := Ideal) v3 v4 j) * (v5 j * v5 j) = _
  rw [diff_pay, probPos_pay, probNeg_pay]; rfl

/-- The block of squared activations at an entry. -/
theorem sq_pay (j : S512x512.Idx) : k0_pay12 (F := Ideal) v27 j = v27 j * v27 j := rfl

/-! ## A block product at an entry -/

local notation "D" => dot_S512x512_S512x512_S512x512_1_1_0_0_n_n

theorem lhs_row (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide),
    dif_pos (show (0 : Fin S512x512.rank) ∈ dot_S512x512_S512x512_S512x512_1_1_0_0_n_n.lhsNonContracting by decide)]
  rfl

theorem lhs_col (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q

theorem rhs_row (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide),
    dif_pos (show (0 : Fin S512x512.rank) ∈ dot_S512x512_S512x512_S512x512_1_1_0_0_n_n.rhsNonContracting by decide)]
  rfl

theorem rhs_col (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- Entry (p, q) of a block product into the zero block: Σ_k l[p,k] · r[q,k]. -/
theorem blockProduct_apply (l r : FVec Ideal S512x512 .bf16) (p q : Fin 512) :
    matmul (F := Ideal) dot_S512x512_S512x512_S512x512_1_1_0_0_n_n none l r (constant S512x512 .f32 0x00000000#32) (ix2 p q)
      = ∑ k : Fin 512, l (ix2 p k) * r (ix2 q k) := by
  simp only [matmul]
  rw [Ideal.matmul_constant_zero_apply,
    ← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ix2 p q)
      ((ValueIdx.contrEquiv1 dot_S512x512_S512x512_S512x512_1_1_0_0_n_n 512 rfl rfl).symm k) = ix2 p k :=
    funext fun a => Fin.ext (by
      match a with
      | ⟨0, _⟩ => exact lhs_row _ _
      | ⟨1, _⟩ => exact (lhs_col _ _).trans hk)
  have er : dot_S512x512_S512x512_S512x512_1_1_0_0_n_n.rhsIdx (ix2 p q)
      ((ValueIdx.contrEquiv1 dot_S512x512_S512x512_S512x512_1_1_0_0_n_n 512 rfl rfl).symm k) = ix2 q k :=
    funext fun a => Fin.ext (by
      match a with
      | ⟨0, _⟩ => exact rhs_row _ _
      | ⟨1, _⟩ => exact (rhs_col _ _).trans hk)
  rw [el, er]

/-! ## The three stores' values at an entry -/

/-- The mean accumulator after a step: what it held plus this step's 512 terms. -/
theorem meanStep_apply (v33 : Blk) (p q : Fin 512) :
    k0_pay14 (F := Ideal) v3 v4 v5 v27 v33 (ix2 p q)
      = v33 (ix2 p q) + ∑ k : Fin 512, v27 (ix2 p k) * wMean (v3 (ix2 q k)) (v4 (ix2 q k)) (v5 (ix2 q k)) := by
  unfold k0_pay14
  rw [shapeCast_self]
  refine (congrArg (v33 (ix2 p q) + ·) (blockProduct_apply _ _ p q)).trans ?_
  refine congrArg (v33 (ix2 p q) + ·) (Finset.sum_congr rfl fun k _ => ?_)
  exact congrArg (v27 (ix2 p k) * ·) (wMean_pay v3 v4 v5 (ix2 q k))

/-- The variance accumulator after a step. -/
theorem varStep_apply (v39 : Blk) (p q : Fin 512) :
    k0_pay1 (F := Ideal) (k0_pay12 v27) (k0_pay13 v3 v4 v5) v39 (ix2 p q)
      = v39 (ix2 p q) + ∑ k : Fin 512, (v27 (ix2 p k) * v27 (ix2 p k)) * wVar (v3 (ix2 q k)) (v4 (ix2 q k)) (v5 (ix2 q k)) := by
  unfold k0_pay1
  rw [shapeCast_self]
  refine (congrArg (v39 (ix2 p q) + ·) (blockProduct_apply _ _ p q)).trans ?_
  refine congrArg (v39 (ix2 p q) + ·) (Finset.sum_congr rfl fun k _ => ?_)
  rw [sq_pay, wVar_pay]

/-- The output block: the epilogue of the two accumulators and the noise block. -/
theorem epilogue_apply (v48 v52 v53 : Blk) (j : S512x512.Idx) :
    k0_pay2 (F := Ideal) v48 v52 v53 j = combine (v52 j) (v48 j) (v53 j) := rfl

/-- The block the accumulators are reset to holds the zero word. -/
theorem resetMean_apply (j : S512x512.Idx) : k0_pay3 (F := Ideal) j = zero32 := by
  unfold k0_pay3; rw [shapeCast_self]; rfl

theorem resetVar_apply (j : S512x512.Idx) : k0_pay4 (F := Ideal) j = zero32 := by
  unfold k0_pay4; rw [shapeCast_self]; rfl

end Cert.KernelIdeal.Payload

end
-- ==== Proof.Blocks.lean ====
/-
  Which entries of the argument arrays a grid step reads.

  The 512 grid steps are numbered t = 64·b + 8·o + k with b, o, k below 8.  Step t reads block (b, k) of the
  activations, block (o, k) of the two logit arrays and of the scales, and block (b, o) of the noise; entry (p, q) of
  block (i, j) of a 4096 x 4096 array is its entry (512·i + p, 512·j + q).
-/
import proofs.«152331_j15058155339868_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

theorem lt_512 (t : Fin cfg0.N) : t.val < 512 := lt_of_lt_of_eq t.isLt (show cfg0.N = 512 from N_0)

/-- The row-block number b of step t. -/
def rowBlock (t : Fin cfg0.N) : Fin 8 := ⟨t.val / 64, by have := lt_512 t; omega⟩
/-- The column-block number o of step t. -/
def colBlock (t : Fin cfg0.N) : Fin 8 := ⟨t.val / 8 % 8, Nat.mod_lt _ (by decide)⟩
/-- The reduction step k of step t. -/
def redStep (t : Fin cfg0.N) : Fin 8 := ⟨t.val % 8, Nat.mod_lt _ (by decide)⟩

/-- Entry p of block i along an axis of extent 4096 = 8 · 512. -/
def entry (i : Fin 8) (p : Fin 512) : Fin 4096 := ⟨512 * i.val + p.val, by have := i.isLt; have := p.isLt; omega⟩

/-! ## The block numbers of each window, decided over the grid -/

theorem index_x : ∀ t : Fin cfg0.N, win0_0.index t 0 = t.val / 64 ∧ win0_0.index t 1 = t.val % 8 :=
  (by decide +kernel : ∀ t : Fin grid0.N, win0_0.index t 0 = t.val / 64 ∧ win0_0.index t 1 = t.val % 8)

theorem index_neg : ∀ t : Fin cfg0.N, win0_1.index t 0 = t.val / 8 % 8 ∧ win0_1.index t 1 = t.val % 8 :=
  (by decide +kernel : ∀ t : Fin grid0.N, win0_1.index t 0 = t.val / 8 % 8 ∧ win0_1.index t 1 = t.val % 8)

theorem index_pos : ∀ t : Fin cfg0.N, win0_2.index t 0 = t.val / 8 % 8 ∧ win0_2.index t 1 = t.val % 8 :=
  (by decide +kernel : ∀ t : Fin grid0.N, win0_2.index t 0 = t.val / 8 % 8 ∧ win0_2.index t 1 = t.val % 8)

theorem index_scale : ∀ t : Fin cfg0.N, win0_3.index t 0 = t.val / 8 % 8 ∧ win0_3.index t 1 = t.val % 8 :=
  (by decide +kernel : ∀ t : Fin grid0.N, win0_3.index t 0 = t.val / 8 % 8 ∧ win0_3.index t 1 = t.val % 8)

theorem index_noise : ∀ t : Fin cfg0.N, win0_4.index t 0 = t.val / 64 ∧ win0_4.index t 1 = t.val / 8 % 8 :=
  (by decide +kernel : ∀ t : Fin grid0.N, win0_4.index t 0 = t.val / 64 ∧ win0_4.index t 1 = t.val / 8 % 8)

theorem index_out : ∀ t : Fin cfg0.N, win0_5.index t 0 = t.val / 64 ∧ win0_5.index t 1 = t.val / 8 % 8 :=
  (by decide +kernel : ∀ t : Fin grid0.N, win0_5.index t 0 = t.val / 64 ∧ win0_5.index t 1 = t.val / 8 % 8)

/-! ## The input blocks at an entry -/

theorem xBlock_apply (c : Dev nD) (t : Fin cfg0.N) (p k : Fin 512) :
    (iblk m c 0 t : Vec F S512x512 .f32) (ix2 p k)
      = m ((c : Thread nD τ).loc main_arg0) (ix2 (entry (rowBlock t) p) (entry (redStep t) k)) := by
  have hi := index_x t
  unfold iblk
  rw [View.read_apply]
  show V m c main_arg0 _ = m (c.tc.loc main_arg0) _
  unfold V
  congr 1
  funext a
  apply Fin.ext
  match a with
  | ⟨0, _⟩ => show win0_0.index t 0 * 512 + 1 * p.val = 512 * (t.val / 64) + p.val; rw [hi.1]; omega
  | ⟨1, _⟩ => show win0_0.index t 1 * 512 + 1 * k.val = 512 * (t.val % 8) + k.val; rw [hi.2]; omega

theorem negBlock_apply (c : Dev nD) (t : Fin cfg0.N) (q k : Fin 512) :
    (iblk m c 1 t : Vec F S512x512 .f32) (ix2 q k)
      = m ((c : Thread nD τ).loc main_arg1) (ix2 (entry (colBlock t) q) (entry (redStep t) k)) := by
  have hi := index_neg t
  unfold iblk
  rw [View.read_apply]
  show V m c main_arg1 _ = m (c.tc.loc main_arg1) _
  unfold V
  congr 1
  funext a
  apply Fin.ext
  match a with
  | ⟨0, _⟩ => show win0_1.index t 0 * 512 + 1 * q.val = 512 * (t.val / 8 % 8) + q.val; rw [hi.1]; omega
  | ⟨1, _⟩ => show win0_1.index t 1 * 512 + 1 * k.val = 512 * (t.val % 8) + k.val; rw [hi.2]; omega

theorem posBlock_apply (c : Dev nD) (t : Fin cfg0.N) (q k : Fin 512) :
    (iblk m c 2 t : Vec F S512x512 .f32) (ix2 q k)
      = m ((c : Thread nD τ).loc main_arg2) (ix2 (entry (colBlock t) q) (entry (redStep t) k)) := by
  have hi := index_pos t
  unfold iblk
  rw [View.read_apply]
  show V m c main_arg2 _ = m (c.tc.loc main_arg2) _
  unfold V
  congr 1
  funext a
  apply Fin.ext
  match a with
  | ⟨0, _⟩ => show win0_2.index t 0 * 512 + 1 * q.val = 512 * (t.val / 8 % 8) + q.val; rw [hi.1]; omega
  | ⟨1, _⟩ => show win0_2.index t 1 * 512 + 1 * k.val = 512 * (t.val % 8) + k.val; rw [hi.2]; omega

theorem scaleBlock_apply (c : Dev nD) (t : Fin cfg0.N) (q k : Fin 512) :
    (iblk m c 3 t : Vec F S512x512 .f32) (ix2 q k)
      = m ((c : Thread nD τ).loc main_arg3) (ix2 (entry (colBlock t) q) (entry (redStep t) k)) := by
  have hi := index_scale t
  unfold iblk
  rw [View.read_apply]
  show V m c main_arg3 _ = m (c.tc.loc main_arg3) _
  unfold V
  congr 1
  funext a
  apply Fin.ext
  match a with
  | ⟨0, _⟩ => show win0_3.index t 0 * 512 + 1 * q.val = 512 * (t.val / 8 % 8) + q.val; rw [hi.1]; omega
  | ⟨1, _⟩ => show win0_3.index t 1 * 512 + 1 * k.val = 512 * (t.val % 8) + k.val; rw [hi.2]; omega

theorem noiseBlock_apply (c : Dev nD) (t : Fin cfg0.N) (p q : Fin 512) :
    (iblk m c 4 t : Vec F S512x512 .f32) (ix2 p q)
      = m ((c : Thread nD τ).loc main_arg4) (ix2 (entry (rowBlock t) p) (entry (colBlock t) q)) := by
  have hi := index_noise t
  unfold iblk
  rw [View.read_apply]
  show V m c main_arg4 _ = m (c.tc.loc main_arg4) _
  unfold V
  congr 1
  funext a
  apply Fin.ext
  match a with
  | ⟨0, _⟩ => show win0_4.index t 0 * 512 + 1 * p.val = 512 * (t.val / 64) + p.val; rw [hi.1]; omega
  | ⟨1, _⟩ => show win0_4.index t 1 * 512 + 1 * q.val = 512 * (t.val / 8 % 8) + q.val; rw [hi.2]; omega

end Cert.KernelIdeal.Blocks

end
-- ==== Proof.Fold.lean ====
/-
  The two accumulators at the end of a reduction run.

  Fix a grid step t with k = 7, the last step of the run of eight steps that share its row block b and column block
  o.  The run's first step zeroes the accumulators and every step adds its block product, so after the last step the
  mean accumulator holds, at entry (p, q), zero plus the eight partial sums of 512 terms of
  Σ_j x[512b+p, j]·mean[512o+q, j] — which is that whole sum — and the variance accumulator likewise.
-/
import proofs.«152331_j15058155339868_1_alg».proof.Proof.Gen.KernelIdeal.Value
import proofs.«152331_j15058155339868_1_alg».proof.Proof.Pieces
import proofs.«152331_j15058155339868_1_alg».proof.Proof.Payload
import proofs.«152331_j15058155339868_1_alg».proof.Proof.Blocks

noncomputable section

open scoped BigOperators

namespace Cert.KernelIdeal.Fold

open Cert.KernelIdeal Cert.KernelIdeal.Gen Cert.KernelIdeal.Pieces Cert.KernelIdeal.Payload Cert.KernelIdeal.Blocks
open Cert.LrSpec
open Idealize.ShloMosaic Idealize.ShloMosaic.TcCoe Idealize.SL.Sem Idealize.ShloMosaic.ValueIdx

variable (m : (ℓ : Loc nD τ sig) → Buf (Elt Ideal) ℓ)

/-- The five argument arrays on core c. -/
abbrev argX (c : Dev nD) : Mat := m ((c : Thread nD τ).loc main_arg0)
abbrev argNeg (c : Dev nD) : Mat := m ((c : Thread nD τ).loc main_arg1)
abbrev argPos (c : Dev nD) : Mat := m ((c : Thread nD τ).loc main_arg2)
abbrev argScale (c : Dev nD) : Mat := m ((c : Thread nD τ).loc main_arg3)
abbrev argNoise (c : Dev nD) : Mat := m ((c : Thread nD τ).loc main_arg4)

/-- The mean terms of entry (p, q) of the block that the run of step t produces. -/
abbrev meanTerms (c : Dev nD) (t : Fin cfg0.N) (p q : Fin 512) : Fin 4096 → EReal :=
  meanTerm (argX m c) (argNeg m c) (argPos m c) (argScale m c) (entry (rowBlock t) p) (entry (colBlock t) q)
/-- Its variance terms. -/
abbrev varTerms (c : Dev nD) (t : Fin cfg0.N) (p q : Fin 512) : Fin 4096 → EReal :=
  varTerm (argX m c) (argNeg m c) (argPos m c) (argScale m c) (entry (rowBlock t) p) (entry (colBlock t) q)

/-! ## One step of the run adds one partial sum -/

/-- A step n of the run of t adds partial sum n mod 8 of the mean terms to what the accumulator held. -/
theorem meanStep_terms (c : Dev nD) (t : Fin cfg0.N) (n : ℕ) (h : n < cfg0.N) (hrun : n / 8 = t.val / 8) (acc : Blk)
    (p q : Fin 512) :
    k0_pay14 (F := Ideal) (iblk m c 1 ⟨n, h⟩) (iblk m c 2 ⟨n, h⟩) (iblk m c 3 ⟨n, h⟩) (iblk m c 0 ⟨n, h⟩) acc (ix2 p q)
      = acc (ix2 p q) + part (meanTerms m c t p q) (n % 8) := by
  refine (meanStep_apply (iblk m c 1 ⟨n, h⟩) (iblk m c 2 ⟨n, h⟩) (iblk m c 3 ⟨n, h⟩) (iblk m c 0 ⟨n, h⟩) acc p q).trans ?_
  refine congrArg (acc (ix2 p q) + ·) ?_
  unfold part
  refine Finset.sum_congr rfl fun k _ => ?_
  have hn : n < 512 := lt_of_lt_of_eq h (show cfg0.N = 512 from N_0)
  have hlt : n % 8 * 512 + k.val < 4096 := by have := k.isLt; omega
  have hr : rowBlock (⟨n, h⟩ : Fin cfg0.N) = rowBlock t := Fin.ext (show n / 64 = t.val / 64 by omega)
  have hc : colBlock (⟨n, h⟩ : Fin cfg0.N) = colBlock t := Fin.ext (show n / 8 % 8 = t.val / 8 % 8 by rw [hrun])
  have hk : entry (redStep (⟨n, h⟩ : Fin cfg0.N)) k = ⟨n % 8 * 512 + k.val, hlt⟩ :=
    Fin.ext (show 512 * (n % 8) + k.val = n % 8 * 512 + k.val by omega)
  rw [ext_of_lt _ _ hlt, xBlock_apply m c ⟨n, h⟩ p k, negBlock_apply m c ⟨n, h⟩ q k, posBlock_apply m c ⟨n, h⟩ q k,
    scaleBlock_apply m c ⟨n, h⟩ q k, hr, hc, hk]
  rfl

/-- The same for the variance accumulator. -/
theorem varStep_terms (c : Dev nD) (t : Fin cfg0.N) (n : ℕ) (h : n < cfg0.N) (hrun : n / 8 = t.val / 8) (acc : Blk)
    (p q : Fin 512) :
    k0_pay1 (F := Ideal) (k0_pay12 (iblk m c 0 ⟨n, h⟩)) (k0_pay13 (iblk m c 1 ⟨n, h⟩) (iblk m c 2 ⟨n, h⟩) (iblk m c 3 ⟨n, h⟩)) acc (ix2 p q)
      = acc (ix2 p q) + part (varTerms m c t p q) (n % 8) := by
  refine (varStep_apply (iblk m c 1 ⟨n, h⟩) (iblk m c 2 ⟨n, h⟩) (iblk m c 3 ⟨n, h⟩) (iblk m c 0 ⟨n, h⟩) acc p q).trans ?_
  refine congrArg (acc (ix2 p q) + ·) ?_
  unfold part
  refine Finset.sum_congr rfl fun k _ => ?_
  have hn : n < 512 := lt_of_lt_of_eq h (show cfg0.N = 512 from N_0)
  have hlt : n % 8 * 512 + k.val < 4096 := by have := k.isLt; omega
  have hr : rowBlock (⟨n, h⟩ : Fin cfg0.N) = rowBlock t := Fin.ext (show n / 64 = t.val / 64 by omega)
  have hc : colBlock (⟨n, h⟩ : Fin cfg0.N) = colBlock t := Fin.ext (show n / 8 % 8 = t.val / 8 % 8 by rw [hrun])
  have hk : entry (redStep (⟨n, h⟩ : Fin cfg0.N)) k = ⟨n % 8 * 512 + k.val, hlt⟩ :=
    Fin.ext (show 512 * (n % 8) + k.val = n % 8 * 512 + k.val by omega)
  rw [ext_of_lt _ _ hlt, xBlock_apply m c ⟨n, h⟩ p k, negBlock_apply m c ⟨n, h⟩ q k, posBlock_apply m c ⟨n, h⟩ q k,
    scaleBlock_apply m c ⟨n, h⟩ q k, hr, hc, hk]
  rfl

/-! ## What a step leaves in each accumulator, case by case -/

theorem meanReset (c : Dev nD) (n : ℕ) (h : n < cfg0.N) (h0 : n % 8 = 0) (acc : Blk) :
    Value.scAt0_0 m c n h acc
      = k0_pay14 (iblk m c 1 ⟨n, h⟩) (iblk m c 2 ⟨n, h⟩) (iblk m c 3 ⟨n, h⟩) (iblk m c 0 ⟨n, h⟩) (k0_pay3 (F := Ideal)) := by
  unfold Value.scAt0_0
  rw [dif_pos h0, dif_neg (by omega)]
  exact sA0 ..

theorem meanAdd (c : Dev nD) (n : ℕ) (h : n < cfg0.N) (h0 : ¬n % 8 = 0) (acc : Blk) :
    Value.scAt0_0 m c n h acc
      = k0_pay14 (iblk m c 1 ⟨n, h⟩) (iblk m c 2 ⟨n, h⟩) (iblk m c 3 ⟨n, h⟩) (iblk m c 0 ⟨n, h⟩) acc := by
  unfold Value.scAt0_0
  rw [dif_neg h0]
  by_cases h1 : n % 8 = 7
  · rw [dif_pos h1]; exact sC0 ..
  · rw [dif_neg h1]; exact sB0 ..

theorem varReset (c : Dev nD) (n : ℕ) (h : n < cfg0.N) (h0 : n % 8 = 0) (acc : Blk) :
    Value.scAt0_1 m c n h acc
      = k0_pay1 (k0_pay12 (iblk m c 0 ⟨n, h⟩)) (k0_pay13 (iblk m c 1 ⟨n, h⟩) (iblk m c 2 ⟨n, h⟩) (iblk m c 3 ⟨n, h⟩)) (k0_pay4 (F := Ideal)) := by
  unfold Value.scAt0_1
  rw [dif_pos h0, dif_neg (by omega)]
  exact sA1 ..

theorem varAdd (c : Dev nD) (n : ℕ) (h : n < cfg0.N) (h0 : ¬n % 8 = 0) (acc : Blk) :
    Value.scAt0_1 m c n h acc
      = k0_pay1 (k0_pay12 (iblk m c 0 ⟨n, h⟩)) (k0_pay13 (iblk m c 1 ⟨n, h⟩) (iblk m c 2 ⟨n, h⟩) (iblk m c 3 ⟨n, h⟩)) acc := by
  unfold Value.scAt0_1
  rw [dif_neg h0]
  by_cases h1 : n % 8 = 7
  · rw [dif_pos h1]; exact sC1 ..
  · rw [dif_neg h1]; exact sB1 ..

/-! ## The accumulators after the last step of a run -/

/-- After the last step of its run the mean accumulator holds the whole mean sum of each entry. -/
theorem meanAcc_apply (c : Dev nD) (t : Fin cfg0.N) (h7 : t.val % 8 = 7) (p q : Fin 512) :
    (outsAt0 m c t.val t.isLt).2.1 (ix2 p q) = ∑ j : Fin 4096, meanTerms m c t p q j := by
  have hN := lt_512 t
  have hb : 8 * (t.val / 8) + t.val % 8 < cfg0.N := by have h1 := t.isLt; have h2 := Nat.div_add_mod t.val 8; omega
  have key := Pipeline.accAt_add_apply
    (fun n h => Value.scAt0_0 m c n h (VS0_0.read (Elt Ideal) VS0_0.junk)) (Value.scAt0_0 m c)
    (fun _ => zero32)
    (fun n (y : S512x512.Idx) => part (meanTerms m c t (y 0) (y 1)) (n % 8))
    (8 * (t.val / 8)) 7
    (fun h i => by
      obtain ⟨p', q', rfl⟩ : ∃ (p' q' : Fin 512), i = ix2 p' q' := ⟨i 0, i 1, eq_ix2 i⟩
      rw [meanReset m c _ h (by omega)]
      refine (meanStep_terms m c t _ h (by omega) _ p' q').trans ?_
      rw [resetMean_apply])
    (fun n h acc i h1 h2 => by
      obtain ⟨p', q', rfl⟩ : ∃ (p' q' : Fin 512), i = ix2 p' q' := ⟨i 0, i 1, eq_ix2 i⟩
      rw [meanAdd m c n h (by omega)]
      exact meanStep_terms m c t n h (by omega) acc p' q')
    (t.val % 8) (by omega) hb (ix2 p q)
  rw [Value.soutsAt0_0_eq m c t, key, h7]
  rw [Finset.sum_congr rfl (fun s hs => by
    rw [show (8 * (t.val / 8) + s) % 8 = s from by have := Finset.mem_range.mp hs; omega])]
  exact zero_add_parts _

/-- And the variance accumulator the whole variance sum. -/
theorem varAcc_apply (c : Dev nD) (t : Fin cfg0.N) (h7 : t.val % 8 = 7) (p q : Fin 512) :
    (outsAt0 m c t.val t.isLt).2.2 (ix2 p q) = ∑ j : Fin 4096, varTerms m c t p q j := by
  have hN := lt_512 t
  have hb : 8 * (t.val / 8) + t.val % 8 < cfg0.N := by have h1 := t.isLt; have h2 := Nat.div_add_mod t.val 8; omega
  have key := Pipeline.accAt_add_apply
    (fun n h => Value.scAt0_1 m c n h (VS0_1.read (Elt Ideal) VS0_1.junk)) (Value.scAt0_1 m c)
    (fun _ => zero32)
    (fun n (y : S512x512.Idx) => part (varTerms m c t (y 0) (y 1)) (n % 8))
    (8 * (t.val / 8)) 7
    (fun h i => by
      obtain ⟨p', q', rfl⟩ : ∃ (p' q' : Fin 512), i = ix2 p' q' := ⟨i 0, i 1, eq_ix2 i⟩
      rw [varReset m c _ h (by omega)]
      refine (varStep_terms m c t _ h (by omega) _ p' q').trans ?_
      rw [resetVar_apply])
    (fun n h acc i h1 h2 => by
      obtain ⟨p', q', rfl⟩ : ∃ (p' q' : Fin 512), i = ix2 p' q' := ⟨i 0, i 1, eq_ix2 i⟩
      rw [varAdd m c n h (by omega)]
      exact varStep_terms m c t n h (by omega) acc p' q')
    (t.val % 8) (by omega) hb (ix2 p q)
  rw [Value.soutsAt0_1_eq m c t, key, h7]
  rw [Finset.sum_congr rfl (fun s hs => by
    rw [show (8 * (t.val / 8) + s) % 8 = s from by have := Finset.mem_range.mp hs; omega])]
  exact zero_add_parts _

/-- At the last step of a run the output block is the epilogue of the two accumulators as that step leaves them and
    the noise block. -/
theorem lastStep_out (c : Dev nD) (t : Fin cfg0.N) (h0 : ¬t.val % 8 = 0) (h7 : t.val % 8 = 7) :
    (outsAt0 m c t.val t.isLt).1
      = k0_pay2 (outsAt0 m c t.val t.isLt).2.2 (outsAt0 m c t.val t.isLt).2.1 (iblk m c 4 t) := by
  rw [outsAt0_C m c t h0 h7]
  dsimp only
  rw [oC5, sC0, sC1]

end Cert.KernelIdeal.Fold

end
-- ==== Proof.Final.lean ====
/-
  The result array after the whole grid.

  Only the last step of each run of eight writes its output block back, and the 64 blocks written tile the array:
  entry (r, c) lies in the block of the run with row block r / 512 and column block c / 512.  Each written block is
  the corresponding block of the specified array, so the array ends equal to it.
-/
import proofs.«152331_j15058155339868_1_alg».proof.Proof.Fold

noncomputable section

open scoped BigOperators

namespace Cert.KernelIdeal.Final

open Cert.KernelIdeal Cert.KernelIdeal.Gen Cert.KernelIdeal.Payload Cert.KernelIdeal.Blocks Cert.KernelIdeal.Fold
open Cert.LrSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specified array of the five argument arrays on core c, as contents of the result buffer. -/
abbrev result (c : Dev nD) : Buf (Elt Ideal) ((c : Thread nD τ).loc main_v0) :=
  out (argX m c) (argNeg m c) (argPos m c) (argScale m c) (argNoise m c)

/-- Entry (p, q) of the output block of step t is entry (512·b + p, 512·o + q) of the array. -/
theorem emb_out (t : Fin cfg0.N) (p q : Fin 512) :
    ((cfg0.win 5).blk t).view.emb (ix2 p q) = ix2 (entry (rowBlock t) p) (entry (colBlock t) q) := by
  have hi := index_out t
  funext a
  apply Fin.ext
  match a with
  | ⟨0, _⟩ => show win0_5.index t 0 * 512 + 1 * p.val = 512 * (t.val / 64) + p.val; rw [hi.1]; omega
  | ⟨1, _⟩ => show win0_5.index t 1 * 512 + 1 * q.val = 512 * (t.val / 8 % 8) + q.val; rw [hi.2]; omega

/-- What a writing step writes back is its block of the specified array. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  have h0 : ¬t.val % 8 = 0 := by omega
  rw [Value.flushed5, lastStep_out m c t h0 h7]
  funext j
  obtain ⟨p, q, rfl⟩ : ∃ (p q : Fin 512), j = ix2 p q := ⟨j 0, j 1, eq_ix2 j⟩
  show k0_pay2 (F := Ideal) (outsAt0 m c t.val t.isLt).2.2 (outsAt0 m c t.val t.isLt).2.1 (iblk m c 4 t) (ix2 p q)
    = result m c (((cfg0.win 5).blk t).view.emb (ix2 p q))
  rw [epilogue_apply, meanAcc_apply m c t h7 p q, varAcc_apply m c t h7 p q, noiseBlock_apply m c t p q, emb_out t p q]
  rfl

/-- An index of the array is in step t's output block iff each coordinate is in the block's range on its axis. -/
theorem mem_blk (t : Fin cfg0.N) (i : S4096x4096.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v0).slice (win0_5.rect t)).set ↔ _
  rw [View.set_slice_whole, Rect.mem_set_unit]
  exact Iff.rfl

/-- Every entry of the array is in the output block of some writing step. -/
theorem cover (i : S4096x4096.Idx) :
    ∃ t : Fin cfg0.N, (cfg0.win 5).flush t = true ∧ i ∈ ((cfg0.win 5).blk t).view.set := by
  have h0 : (i 0).val < 4096 := (i 0).isLt
  have h1 : (i 1).val < 4096 := (i 1).isLt
  have hN : cfg0.N = 512 := N_0
  have hlt : 64 * ((i 0).val / 512) + 8 * ((i 1).val / 512) + 7 < cfg0.N := by rw [hN]; omega
  have hi := index_out ⟨64 * ((i 0).val / 512) + 8 * ((i 1).val / 512) + 7, hlt⟩
  have hi0 : win0_5.index ⟨64 * ((i 0).val / 512) + 8 * ((i 1).val / 512) + 7, hlt⟩ 0
      = (64 * ((i 0).val / 512) + 8 * ((i 1).val / 512) + 7) / 64 := hi.1
  have hi1 : win0_5.index ⟨64 * ((i 0).val / 512) + 8 * ((i 1).val / 512) + 7, hlt⟩ 1
      = (64 * ((i 0).val / 512) + 8 * ((i 1).val / 512) + 7) / 8 % 8 := hi.2
  refine ⟨⟨64 * ((i 0).val / 512) + 8 * ((i 1).val / 512) + 7, hlt⟩, ?_, ?_⟩
  · exact (flush0_5 _).mpr (by show (64 * ((i 0).val / 512) + 8 * ((i 1).val / 512) + 7) % 8 = 7; omega)
  · rw [mem_blk]
    intro a
    match a with
    | ⟨0, _⟩ =>
      show win0_5.index _ 0 * 512 ≤ (i 0).val ∧ (i 0).val < win0_5.index _ 0 * 512 + 512
      rw [hi0]; omega
    | ⟨1, _⟩ =>
      show win0_5.index _ 1 * 512 ≤ (i 1).val ∧ (i 1).val < win0_5.index _ 1 * 512 + 512
      rw [hi1]; omega

/-- The result array after the run is the specified array. -/
theorem final (c : Dev nD) : (dats m 0 c).arrAt 5 cfg0.N = result m c :=
  (dats m 0 c).arrAt_eq_of_cover 5 (result m c) (flushed_eq m c) cover

/-- Every fair execution ends with the result array at the specified array and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.lean ====
/-
  A linear layer with random ternary weights: each weight is −s, 0 or +s with probabilities given by a three-way softmax
  of its two logits, and the layer's output is sampled from the matching normal distribution,

      out[r,c] = Σ_j x[r,j]·mean[c,j] + sqrt(max(Σ_j x[r,j]²·var[c,j], floor)) · noise[r,c] .

  The reference forms the 4096 x 4096 arrays of weight means and variances and contracts them with the activations in
  one piece.  The kernel works on 512 x 512 tiles: for every output tile it runs through the eight tiles of the
  feature axis, recomputes the tile of means and variances from the logits, adds the two tile products into two
  accumulators that start from zero, and at the last of the eight steps applies the epilogue.  Over the extended
  reals a change of float format is the identity, a sum does not depend on how it is grouped, and 0 − M = −M, so both
  programs compute the function stated in Spec.lean, entry by entry; no use is made of the inputs being finite.

  Spec.lean       the function, and the law that eight partial sums of 512 terms make the sum of 4096 terms
  RefSpec.lean    the reference computes it
  Pieces.lean     what one grid step leaves in the accumulators and the output tile
  Payload.lean    the step's arithmetic at one entry of a tile
  Blocks.lean     which entries of the arguments a step reads
  Fold.lean       the accumulators after the last step of a run of eight
  Final.lean      the result array after the whole grid
-/
import proofs.«152331_j15058155339868_1_alg».proof.Defs
import proofs.«152331_j15058155339868_1_alg».proof.Proof.Gen.Kernel
import proofs.«152331_j15058155339868_1_alg».proof.Proof.Gen.Kernel.Skeleton
import proofs.«152331_j15058155339868_1_alg».proof.Proof.Gen.Kernel.Launch
import proofs.«152331_j15058155339868_1_alg».proof.Proof.Gen.Kernel.Points
import proofs.«152331_j15058155339868_1_alg».proof.Proof.Gen.Kernel.Frame
import proofs.«152331_j15058155339868_1_alg».proof.Proof.Gen.KernelIdeal
import proofs.«152331_j15058155339868_1_alg».proof.Proof.Gen.KernelIdeal.Skeleton
import proofs.«152331_j15058155339868_1_alg».proof.Proof.Gen.KernelIdeal.Launch
import proofs.«152331_j15058155339868_1_alg».proof.Proof.Gen.KernelIdeal.Points
import proofs.«152331_j15058155339868_1_alg».proof.Proof.Gen.KernelIdeal.Frame
import proofs.«152331_j15058155339868_1_alg».proof.Proof.Gen.ReferenceIdeal
import proofs.«152331_j15058155339868_1_alg».proof.Proof.Gen.Pre_finite_inputs
import proofs.«152331_j15058155339868_1_alg».proof.Proof.Gen.KernelIdeal.Value
import proofs.«152331_j15058155339868_1_alg».proof.Proof.Gen.ReferenceIdeal.Run
import proofs.«152331_j15058155339868_1_alg».proof.Proof.Gen.ReferenceIdeal.Read
import proofs.«152331_j15058155339868_1_alg».proof.Proof.RefSpec
import proofs.«152331_j15058155339868_1_alg».proof.Proof.Final
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- From arguments that agree both programs end with the specified array of those arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefSpec.ref_eq_out, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
